-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x64, .f32⟩
  | .hbm, ⟨112, _⟩ => ⟨S1700000x1, .f32⟩
  | .hbm, ⟨113, _⟩ => ⟨S1700000x64, .f32⟩
  | .hbm, ⟨114, _⟩ => ⟨S1700000x64, .f32⟩
  | .hbm, ⟨115, _⟩ => ⟨S_, .f32⟩
  | .hbm, ⟨116, _⟩ => ⟨S100000x64, .f32⟩
  | .hbm, ⟨117, _⟩ => ⟨S1700000x1, .i32⟩
  | .hbm, ⟨118, _⟩ => ⟨S100000x64, .f32⟩
  | .hbm, ⟨119, _⟩ => ⟨S1x64, .f32⟩
  | .hbm, ⟨120, _⟩ => ⟨S100000x64, .f32⟩
  | .hbm, ⟨121, _⟩ => ⟨S100000x64, .f32⟩
  | .hbm, ⟨122, _⟩ => ⟨S_, .f32⟩
  | .hbm, ⟨123, _⟩ => ⟨S100000x64, .f32⟩
  | .hbm, ⟨124, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_v88 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel program's run with its result NAMED.

  The program is four pipelined kernel launches among stretches of host operations. Its run is followed boundary by
  boundary: the contents of every buffer after each stretch and after each launch are a fold from the launch memory
  (the folds `W0 … W9` of the generated frame module). The frame theorem keeps of the last boundary only that the
  argument arrays are unchanged; here the same run is read once more and the result buffer is kept as well: after the
  run the result array holds the last boundary's contents at that buffer, `V9 m ρ c main_v61`.
-/
import proofs.«105514_j69896297775675_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents of its buffer and the argument arrays as launched: the segments' run, the last thread state
    (every unscoped buffer at the last boundary's contents) read against the final state. -/
theorem run_result : θ_run defs (onTc (τ := τ) (main (F := F))) ⟨m, fun _ => 0, ρ⟩ (fun r => ∀ c : Dev nD,
      r.2.mem ((c.tc : Thread nD τ).loc main_v61) = V9 m ρ c main_v61
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.Spec.lean ====
/-
  The two-layer graph convolution as ONE composition of whole-array operations, in the reference program's own
  spelling.

  From the edge list `e` (two rows of 1 600 000 node ids) the program appends one self-loop per node: `srcOf e` and
  `dstOf e` are the 1 700 000 sources and targets. The degree of a node is the number of edges that arrive at it
  (a scatter-add of ones), `dinvOf` its inverse square root where the degree is positive and zero elsewhere, and the
  weight of an edge, `normOf`, the product of the two end points' values (each end point looked up by a gather whose
  negative ids wrap around once). One layer multiplies the features by a weight matrix, sends every source row, scaled
  by its edge's weight, to its target row (`agg`: a row gather, a product with the broadcast weights, a row scatter-add
  into zeros), adds the bias to every row and clamps at zero (`act`). `gcn` is the two layers in sequence.

  Each definition is the term the reference program's operations compose to, sub-term for sub-term, so that the
  reference's result is `gcn` of its arguments by unfolding alone.
-/
import proofs.«105514_j69896297775675_1_alg».proof.Proof.Gen.ReferenceIdeal

noncomputable section

namespace Cert.ReferenceIdeal.Spec

open Cert.ReferenceIdeal Cert.ReferenceIdeal.Gen Idealize.ShloMosaic Idealize.ShloMosaic.TcCoe Idealize.SL.Sem Idealize.ShloMosaic.StableHlo

variable {F : FTy → Type} [FloatOps F]

/-- The edges' sources: row 0 of the edge list, then every node once (its self-loop). -/
def srcOf (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' targets: row 1 of the edge list, then every node once. -/
def dstOf (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- Node ids as gather indices: a negative id wraps around once (100000 is added), and the ids become a column. -/
def wrapIdx (v : IVec S1700000 32) : IVec S1700000x1 32 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- A node's degree: one for every edge whose target it is. -/
def degOf (d : IVec S1700000 32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- The inverse square root of the degree where it is positive, zero elsewhere. -/
def dinvOf (d : IVec S1700000 32) : FVec F S100000 .f32 :=
  select (cmpf (F := F) .ogt (degOf d) (broadcastInDim S100000 ![] bcast_S_S100000 (constant S_ .f32 0x00000000#32))) (Host.rsqrt (degOf d)) (broadcastInDim S100000 ![] bcast_S_S100000 (id (constant S_ .f32 0x00000000#32)))

/-- An edge's weight: the product of its two end points' inverse square-root degrees. -/
def normOf (s d : IVec S1700000 32) : FVec F S1700000 .f32 :=
  mulf (Host.gather gather_S100000_S1700000x1_S1700000_n_0_n_n_0_1_1 (dinvOf d) (wrapIdx s)) (Host.gather gather_S100000_S1700000x1_S1700000_n_0_n_n_0_1_1 (dinvOf d) (wrapIdx d))

/-- Message passing: every edge carries its source's row of `h`, scaled by the edge's weight `n`, to its target's row;
    the rows arriving at a node are added up from zero. -/
def agg (s d : IVec S1700000 32) (n : FVec F S1700000 .f32) (h : FVec F S100000x64 .f32) : FVec F S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 h (wrapIdx s)) (broadcastInDim S1700000x64 ![0, 1] bcast_S1700000x1_S1700000x64_0_1 (broadcastInDim S1700000x1 ![0] bcast_S1700000_S1700000x1_0 n)))

/-- The bias added to every row, then the clamp at zero. -/
def act (a : FVec F S100000x64 .f32) (b : FVec F S64 .f32) : FVec F S100000x64 .f32 :=
  maximumf (addf a (broadcastInDim S100000x64 ![0, 1] bcast_S1x64_S100000x64_0_1 (broadcastInDim S1x64 ![1] bcast_S64_S1x64_1 b))) (broadcastInDim S100000x64 ![] bcast_S_S100000x64 (constant S_ .f32 0x00000000#32))

/-- The two layers: features `x`, edge list `e`, the layers' weight matrices and biases. -/
def gcn (x : FVec F S100000x128 .f32) (e : IVec S2x1600000 32) (w1 : FVec F S128x64 .f32) (b1 : FVec F S64 .f32)
    (w2 : FVec F S64x64 .f32) (b2 : FVec F S64 .f32) : FVec F S100000x64 .f32 :=
  act (agg (srcOf e) (dstOf e) (normOf (srcOf e) (dstOf e))
    (Host.dotGeneral dot_S100000x64_S64x64_S100000x64_1_0_0_1_n_n none
      (act (agg (srcOf e) (dstOf e) (normOf (srcOf e) (dstOf e))
        (Host.dotGeneral dot_S100000x128_S128x64_S100000x64_1_0_0_1_n_n none x w1)) b1) w2)) b2

end Cert.ReferenceIdeal.Spec

end
-- ==== Proof.LibTRef.lean ====
/-
  A typed reference's two transports cancel.

  A typed reference to a host buffer carries the equation between the buffer's recorded type and the value's type; an
  operation stated over typed references carries contents of the value's type into the buffer's type on the way in and back
  on the way out. Carrying a value in and straight back out is the identity, whatever the equation's proof.
-/
import Idealize.ShloMosaic.Lib.StableHlo

namespace Cert.LibTRef

open Idealize.ShloMosaic Idealize.ShloMosaic.StableHlo

/-- Contents carried into a typed reference's buffer type and back out are the contents. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTRef
-- ==== Proof.HostReads.lean ====
/-
  The idealized kernel program's host stretches, read at the buffers the next stretch or launch needs.

  Between its kernel launches the program runs stretches of host operations. Each stretch is read here from ANY
  contents `W` of the buffers at its start: what it leaves in a buffer it writes is the composed term of its
  operations over the contents it reads, and a buffer it does not write is left as it was. The composed terms are
  named by the graph convolution's own functions (sources and targets of the edges, degrees, edge weights, message
  passing): the host operations of the kernel program are, operation for operation, the reference's, and the two
  programs' shape and dimension records are equal field by field.
-/
import proofs.«105514_j69896297775675_1_alg».proof.Proof.Gen.KernelIdeal.Launch
import proofs.«105514_j69896297775675_1_alg».proof.Proof.Spec
import proofs.«105514_j69896297775675_1_alg».proof.Proof.LibTRef
import Idealize.ShloMosaic.Lib.StableHlo.Run
import Idealize.ShloMosaic.PureOps.Ideal

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo

variable (W : Valuation τ sig (Elt Ideal))

/-! ## The first stretch: the edges' end points, the degrees, and the pieces of the inverse square root -/

/-- The sources: row 0 of the edge list, then the self-loops. -/
theorem s0_v3 : StableHlo.after (hostOps0 (F := Ideal)) W (Proc.devRef .tc main_v3)
    = Cert.ReferenceIdeal.Spec.srcOf (W (Proc.devRef .tc main_arg1)) := by
  after_results
  rfl

/-- The targets: row 1 of the edge list, then the self-loops. -/
theorem s0_v6 : StableHlo.after (hostOps0 (F := Ideal)) W (Proc.devRef .tc main_v6)
    = Cert.ReferenceIdeal.Spec.dstOf (W (Proc.devRef .tc main_arg1)) := by
  after_results
  rfl

/-- Where the degree is positive. -/
theorem s0_v12 : StableHlo.after (hostOps0 (F := Ideal)) W (Proc.devRef .tc main_v12)
    = cmpf (F := Ideal) .ogt (Cert.ReferenceIdeal.Spec.degOf (Cert.ReferenceIdeal.Spec.dstOf (W (Proc.devRef .tc main_arg1))))
        (broadcastInDim Cert.ReferenceIdeal.S100000 ![] Cert.ReferenceIdeal.Gen.bcast_S_S100000 (constant (F := Ideal) Cert.ReferenceIdeal.S_ .f32 0x00000000#32)) := by
  after_results
  rfl

/-- The inverse square root of the degree. -/
theorem s0_v13 : StableHlo.after (hostOps0 (F := Ideal)) W (Proc.devRef .tc main_v13)
    = Host.rsqrt (Cert.ReferenceIdeal.Spec.degOf (F := Ideal) (Cert.ReferenceIdeal.Spec.dstOf (W (Proc.devRef .tc main_arg1)))) := by
  after_results
  rfl

/-- The zero the selection falls back to. -/
theorem s0_cst_2 : StableHlo.after (hostOps0 (F := Ideal)) W (Proc.devRef .tc main_cst_2)
    = constant (F := Ideal) Cert.ReferenceIdeal.S_ .f32 0x00000000#32 := by
  after_results

/-- The first stretch writes none of the float arguments. -/
theorem s0_keep : StableHlo.after (hostOps0 (F := Ideal)) W (Proc.devRef .tc main_arg0) = W (Proc.devRef .tc main_arg0)
    ∧ StableHlo.after (hostOps0 (F := Ideal)) W (Proc.devRef .tc main_arg2) = W (Proc.devRef .tc main_arg2)
    ∧ StableHlo.after (hostOps0 (F := Ideal)) W (Proc.devRef .tc main_arg3) = W (Proc.devRef .tc main_arg3)
    ∧ StableHlo.after (hostOps0 (F := Ideal)) W (Proc.devRef .tc main_arg4) = W (Proc.devRef .tc main_arg4)
    ∧ StableHlo.after (hostOps0 (F := Ideal)) W (Proc.devRef .tc main_arg5) = W (Proc.devRef .tc main_arg5) := by
  refine ⟨?_, ?_, ?_, ?_, ?_⟩ <;> after_results

/-! ## The second stretch: the selection -/

/-- The inverse square root where the degree is positive, zero elsewhere. -/
theorem s01_v14 : StableHlo.after (hostOps0_1 (F := Ideal)) W (Proc.devRef .tc main_v14)
    = select (W (Proc.devRef .tc main_v12)) (W (Proc.devRef .tc main_v13))
        (broadcastInDim Cert.ReferenceIdeal.S100000 ![] Cert.ReferenceIdeal.Gen.bcast_S_S100000 (id (W (Proc.devRef .tc main_cst_2)))) := by
  after_results
  simp only [Cert.LibTRef.ofBuf_toBuf]
  rfl

theorem s01_keep : StableHlo.after (hostOps0_1 (F := Ideal)) W (Proc.devRef .tc main_v3) = W (Proc.devRef .tc main_v3)
    ∧ StableHlo.after (hostOps0_1 (F := Ideal)) W (Proc.devRef .tc main_v6) = W (Proc.devRef .tc main_v6)
    ∧ StableHlo.after (hostOps0_1 (F := Ideal)) W (Proc.devRef .tc main_arg0) = W (Proc.devRef .tc main_arg0)
    ∧ StableHlo.after (hostOps0_1 (F := Ideal)) W (Proc.devRef .tc main_arg2) = W (Proc.devRef .tc main_arg2)
    ∧ StableHlo.after (hostOps0_1 (F := Ideal)) W (Proc.devRef .tc main_arg3) = W (Proc.devRef .tc main_arg3)
    ∧ StableHlo.after (hostOps0_1 (F := Ideal)) W (Proc.devRef .tc main_arg4) = W (Proc.devRef .tc main_arg4)
    ∧ StableHlo.after (hostOps0_1 (F := Ideal)) W (Proc.devRef .tc main_arg5) = W (Proc.devRef .tc main_arg5) := by
  refine ⟨?_, ?_, ?_, ?_, ?_, ?_, ?_⟩ <;> after_results

/-! ## The third stretch: the edges' weights -/

/-- An edge's weight is the product of its end points' values, each looked up by a gather at the wrapped ids. -/
theorem s02_v29 : StableHlo.after (hostOps0_2 (F := Ideal)) W (Proc.devRef .tc main_v29)
    = mulf (F := Ideal) (s := Cert.ReferenceIdeal.S1700000) (φ := .f32) (Host.gather Cert.ReferenceIdeal.gather_S100000_S1700000x1_S1700000_n_0_n_n_0_1_1 (W (Proc.devRef .tc main_v14)) (Cert.ReferenceIdeal.Spec.wrapIdx (W (Proc.devRef .tc main_v3))))
        (Host.gather Cert.ReferenceIdeal.gather_S100000_S1700000x1_S1700000_n_0_n_n_0_1_1 (W (Proc.devRef .tc main_v14)) (Cert.ReferenceIdeal.Spec.wrapIdx (W (Proc.devRef .tc main_v6)))) := by
  after_results_simp
  rfl

theorem s02_keep : StableHlo.after (hostOps0_2 (F := Ideal)) W (Proc.devRef .tc main_v3) = W (Proc.devRef .tc main_v3)
    ∧ StableHlo.after (hostOps0_2 (F := Ideal)) W (Proc.devRef .tc main_v6) = W (Proc.devRef .tc main_v6)
    ∧ StableHlo.after (hostOps0_2 (F := Ideal)) W (Proc.devRef .tc main_arg0) = W (Proc.devRef .tc main_arg0)
    ∧ StableHlo.after (hostOps0_2 (F := Ideal)) W (Proc.devRef .tc main_arg2) = W (Proc.devRef .tc main_arg2)
    ∧ StableHlo.after (hostOps0_2 (F := Ideal)) W (Proc.devRef .tc main_arg3) = W (Proc.devRef .tc main_arg3)
    ∧ StableHlo.after (hostOps0_2 (F := Ideal)) W (Proc.devRef .tc main_arg4) = W (Proc.devRef .tc main_arg4)
    ∧ StableHlo.after (hostOps0_2 (F := Ideal)) W (Proc.devRef .tc main_arg5) = W (Proc.devRef .tc main_arg5) := by
  refine ⟨?_, ?_, ?_, ?_, ?_, ?_, ?_⟩ <;> after_results

/-! ## The stretch after the first product: message passing, and the first bias as a row -/

theorem s1_v43 : StableHlo.after (hostOps1 (F := Ideal)) W (Proc.devRef .tc main_v43)
    = Cert.ReferenceIdeal.Spec.agg (F := Ideal) (W (Proc.devRef .tc main_v3)) (W (Proc.devRef .tc main_v6)) (W (Proc.devRef .tc main_v29)) (W (Proc.devRef .tc main_v30)) := by
  after_results_simp
  rfl

theorem s1_v44 : StableHlo.after (hostOps1 (F := Ideal)) W (Proc.devRef .tc main_v44)
    = shapeCast S1x64 (W (Proc.devRef .tc main_arg3)) Gen.shapeCasts_S64_S1x64 := by
  after_results
  rfl

theorem s1_keep : StableHlo.after (hostOps1 (F := Ideal)) W (Proc.devRef .tc main_v3) = W (Proc.devRef .tc main_v3)
    ∧ StableHlo.after (hostOps1 (F := Ideal)) W (Proc.devRef .tc main_v6) = W (Proc.devRef .tc main_v6)
    ∧ StableHlo.after (hostOps1 (F := Ideal)) W (Proc.devRef .tc main_v29) = W (Proc.devRef .tc main_v29)
    ∧ StableHlo.after (hostOps1 (F := Ideal)) W (Proc.devRef .tc main_arg4) = W (Proc.devRef .tc main_arg4)
    ∧ StableHlo.after (hostOps1 (F := Ideal)) W (Proc.devRef .tc main_arg5) = W (Proc.devRef .tc main_arg5) := by
  refine ⟨?_, ?_, ?_, ?_, ?_⟩ <;> after_results

/-! ## The stretch after the second product: message passing again, and the second bias as a row -/

theorem s3_v59 : StableHlo.after (hostOps3 (F := Ideal)) W (Proc.devRef .tc main_v59)
    = Cert.ReferenceIdeal.Spec.agg (F := Ideal) (W (Proc.devRef .tc main_v3)) (W (Proc.devRef .tc main_v6)) (W (Proc.devRef .tc main_v29)) (W (Proc.devRef .tc main_v46)) := by
  after_results_simp
  rfl

theorem s3_v60 : StableHlo.after (hostOps3 (F := Ideal)) W (Proc.devRef .tc main_v60)
    = shapeCast S1x64 (W (Proc.devRef .tc main_arg5)) Gen.shapeCasts_S64_S1x64 := by
  after_results
  rfl

end Cert.KernelIdeal.HostReads

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibMatProd.lean ====
/-
  A matrix product as one function on the extended reals, and the format changes that do not change it.

  General in the extents M, K, N (and, for the gather, in the shapes): nothing here mentions a program.

  `matProd l r` is the rows × contraction by contraction × columns product read entry by entry: the entry at
  (i, j) is the sum over k of l (i, k) · r (k, j). Both printed forms of the product are this function: the host's
  `dot_general` of the whole operands, and a `tpu.matmul` of two operands rounded to a narrower float format and
  accumulated into the zero splat — on the extended reals a change of float format is the identity. A change of format
  around a row gather is the identity too: the gather only re-indexes its operand.
-/
import proofs.«105514_j69896297775675_1_alg».proof.Proof.LibDot
import Idealize.ShloMosaic.Lib.ValueIdx
import Idealize.ShloMosaic.PureOps.Ideal.Laws

noncomputable section

namespace Cert.LibMatProd

open Idealize.ShloMosaic Idealize.ShloMosaic.ValueIdx

variable {M K N : Nat}

/-- The product of an M × K and a K × N matrix of extended reals, entry by entry. -/
def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

/-- The host's `dot_general` contracting the left operand's second axis with the right operand's first is the
    product. -/
theorem dotGeneral_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ .f32) (r : FVec Ideal ⟨2, ![K, N]⟩ .f32) :
    Host.dotGeneral d none l r = matProd l r :=
  funext fun y => LibDot.dotGeneral_plain_apply d hlc hrc hln hrn hlb hrb none .single l r y

/-- A `tpu.matmul` of the two operands rounded to bf16, into the zero accumulator, is the product of the operands
    themselves: at an entry. -/
theorem matmul_trunc_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (hb : FTy.bits .bf16 < FTy.bits .f32)
    (l : FVec Ideal ⟨2, ![M, K]⟩ .f32) (r : FVec Ideal ⟨2, ![K, N]⟩ .f32) (y : (⟨2, ![M, N]⟩ : Shape).Idx) :
    FloatOps.matmul d none (truncf .bf16 l hb) (truncf .bf16 r hb) (constant ⟨2, ![M, N]⟩ .f32 0x00000000#32) y
      = ∑ k : Fin K, l (ix2 (y 0) k) * r (ix2 k (y 1)) :=
  LibDot.matmul_zero_plain_apply d hlc hrc hln hrn hlb hrb none (truncf .bf16 l hb) (truncf .bf16 r hb) y

variable {s si t : Shape} {w : Nat}

/-- Rounding to a narrower format, gathering rows, and widening again is the gather itself. -/
theorem extf_gather_truncf (d : GatherDims s si t) (hb : FTy.bits .bf16 < FTy.bits .f32)
    (x : FVec Ideal s .f32) (idx : IVec si w) :
    extf .f32 (Host.gather d (truncf .bf16 x hb) idx) hb = Host.gather d x idx :=
  funext fun _ => rfl

end Cert.LibMatProd

end
-- ==== Proof.KernelValue.lean ====
/-
  The idealized kernel program's result is the two-layer graph convolution of its arguments.

  The program's run is a fold through nine boundaries (the generated `W0 … W9`): three host stretches, the first
  product's launch, a host stretch, the first bias-and-clamp launch, the second product's launch, a host stretch, the
  second bias-and-clamp launch. The buffers that matter are followed from boundary to boundary: the edges' end
  points and weights and the float arguments are written once and then only carried; each launch leaves in its output
  array one whole-array function of its input arrays (taken here as the four hypotheses `hmm₀ hbr₁ hmm₂ hbr₃`, proved
  per launch elsewhere); each host stretch is message passing over what the previous launch left. On the extended
  reals a product block by block is the host's one product of the whole arrays, and a bias row made by a reshape is the
  bias row made by a broadcast, so every boundary's contents are the reference's own terms.
-/
import proofs.«105514_j69896297775675_1_alg».proof.Proof.Gen.KernelIdeal.Frame
import proofs.«105514_j69896297775675_1_alg».proof.Proof.HostReads
import proofs.«105514_j69896297775675_1_alg».proof.Proof.LibMatProd
import Idealize.ShloMosaic.Lib.Pipeline.Value

set_option maxRecDepth 16384

noncomputable section

namespace Cert.KernelIdeal.RunValue

open Cert.KernelIdeal Cert.KernelIdeal.Gen
open Idealize.ShloMosaic Idealize.ShloMosaic.TcCoe Idealize.SL.Sem Idealize.ShloMosaic.StableHlo

/-- A bias vector reshaped to one row is the bias vector broadcast to one row: both read the vector at the column. -/
theorem row_of_reshape {α : Type} (b : S64.Idx → α) (h1 : S64.ShapeCasts S1x64)
    (h2 : S64.BroadcastsInDim S1x64 (![1] : Fin 1 → Fin S1x64.rank)) :
    shapeCast S1x64 b h1 = broadcastInDim S1x64 ![1] h2 b := by
  funext j
  rw [broadcastInDim_apply ![1] h2 b j (fun a => j a.succ) (fun a => by
    match a with
    | ⟨0, _⟩ => rfl)]
  exact shapeCast_addUnit_apply ![64] b h1 j

variable (m : (ℓ : Loc nD τ sig) → Buf (Elt Ideal) ℓ) (ρ : Dev nD → PrngReg) (c : Dev nD)

/-! ## Up to the first launch: the graph's data -/

theorem W3_v3 : W3 m ρ c (Proc.devRef .tc main_v3) = (Cert.ReferenceIdeal.Spec.srcOf (W0 m ρ c (Proc.devRef .tc main_arg1))) :=
  (Cert.KernelIdeal.HostReads.s02_keep (W2 m ρ c)).1.trans ((Cert.KernelIdeal.HostReads.s01_keep (W1 m ρ c)).1.trans (Cert.KernelIdeal.HostReads.s0_v3 (W0 m ρ c)))

theorem W3_v6 : W3 m ρ c (Proc.devRef .tc main_v6) = (Cert.ReferenceIdeal.Spec.dstOf (W0 m ρ c (Proc.devRef .tc main_arg1))) :=
  (Cert.KernelIdeal.HostReads.s02_keep (W2 m ρ c)).2.1.trans ((Cert.KernelIdeal.HostReads.s01_keep (W1 m ρ c)).2.1.trans (Cert.KernelIdeal.HostReads.s0_v6 (W0 m ρ c)))

theorem W2_v14 : W2 m ρ c (Proc.devRef .tc main_v14) = Cert.ReferenceIdeal.Spec.dinvOf (F := Ideal) (Cert.ReferenceIdeal.Spec.dstOf (W0 m ρ c (Proc.devRef .tc main_arg1))) := by
  refine (Cert.KernelIdeal.HostReads.s01_v14 (W1 m ρ c)).trans ?_
  have h12 : W1 m ρ c (Proc.devRef .tc main_v12) = _ := Cert.KernelIdeal.HostReads.s0_v12 (W0 m ρ c)
  have h13 : W1 m ρ c (Proc.devRef .tc main_v13) = _ := Cert.KernelIdeal.HostReads.s0_v13 (W0 m ρ c)
  have hc2 : W1 m ρ c (Proc.devRef .tc main_cst_2) = _ := Cert.KernelIdeal.HostReads.s0_cst_2 (W0 m ρ c)
  rw [h12, h13, hc2]
  rfl

theorem W3_v29 : W3 m ρ c (Proc.devRef .tc main_v29) = (Cert.ReferenceIdeal.Spec.normOf (F := Ideal) (Cert.ReferenceIdeal.Spec.srcOf (W0 m ρ c (Proc.devRef .tc main_arg1))) (Cert.ReferenceIdeal.Spec.dstOf (W0 m ρ c (Proc.devRef .tc main_arg1)))) := by
  refine (Cert.KernelIdeal.HostReads.s02_v29 (W2 m ρ c)).trans ?_
  have h3 : W2 m ρ c (Proc.devRef .tc main_v3) = (Cert.ReferenceIdeal.Spec.srcOf (W0 m ρ c (Proc.devRef .tc main_arg1))) := (Cert.KernelIdeal.HostReads.s01_keep (W1 m ρ c)).1.trans (Cert.KernelIdeal.HostReads.s0_v3 (W0 m ρ c))
  have h6 : W2 m ρ c (Proc.devRef .tc main_v6) = (Cert.ReferenceIdeal.Spec.dstOf (W0 m ρ c (Proc.devRef .tc main_arg1))) := (Cert.KernelIdeal.HostReads.s01_keep (W1 m ρ c)).2.1.trans (Cert.KernelIdeal.HostReads.s0_v6 (W0 m ρ c))
  rw [W2_v14 m ρ c, h3, h6]
  rfl

theorem W3_arg0 : W3 m ρ c (Proc.devRef .tc main_arg0) = (W0 m ρ c (Proc.devRef .tc main_arg0)) :=
  (Cert.KernelIdeal.HostReads.s02_keep (W2 m ρ c)).2.2.1.trans ((Cert.KernelIdeal.HostReads.s01_keep (W1 m ρ c)).2.2.1.trans (Cert.KernelIdeal.HostReads.s0_keep (W0 m ρ c)).1)
theorem W3_arg2 : W3 m ρ c (Proc.devRef .tc main_arg2) = (W0 m ρ c (Proc.devRef .tc main_arg2)) :=
  (Cert.KernelIdeal.HostReads.s02_keep (W2 m ρ c)).2.2.2.1.trans ((Cert.KernelIdeal.HostReads.s01_keep (W1 m ρ c)).2.2.2.1.trans (Cert.KernelIdeal.HostReads.s0_keep (W0 m ρ c)).2.1)
theorem W3_arg3 : W3 m ρ c (Proc.devRef .tc main_arg3) = (W0 m ρ c (Proc.devRef .tc main_arg3)) :=
  (Cert.KernelIdeal.HostReads.s02_keep (W2 m ρ c)).2.2.2.2.1.trans ((Cert.KernelIdeal.HostReads.s01_keep (W1 m ρ c)).2.2.2.2.1.trans (Cert.KernelIdeal.HostReads.s0_keep (W0 m ρ c)).2.2.1)
theorem W3_arg4 : W3 m ρ c (Proc.devRef .tc main_arg4) = (W0 m ρ c (Proc.devRef .tc main_arg4)) :=
  (Cert.KernelIdeal.HostReads.s02_keep (W2 m ρ c)).2.2.2.2.2.1.trans ((Cert.KernelIdeal.HostReads.s01_keep (W1 m ρ c)).2.2.2.2.2.1.trans (Cert.KernelIdeal.HostReads.s0_keep (W0 m ρ c)).2.2.2.1)
theorem W3_arg5 : W3 m ρ c (Proc.devRef .tc main_arg5) = (W0 m ρ c (Proc.devRef .tc main_arg5)) :=
  (Cert.KernelIdeal.HostReads.s02_keep (W2 m ρ c)).2.2.2.2.2.2.trans ((Cert.KernelIdeal.HostReads.s01_keep (W1 m ρ c)).2.2.2.2.2.2.trans (Cert.KernelIdeal.HostReads.s0_keep (W0 m ρ c)).2.2.2.2)

/-! ## The launches' whole-array results, as hypotheses -/

variable
  (hmm₀ : ∀ (V : (c : Dev nD) → (b : Ref sig .tc) → Buf (Elt Ideal) ((c : Thread nD τ).loc b)) (c : Dev nD),
    (dat0 (F := Ideal) V c).arrAt 2 cfg0.N
      = Cert.LibMatProd.matProd (M := 100000) (K := 128) (N := 64) (V c main_arg0) (V c main_arg2))
  (hbr₁ : ∀ (V : (c : Dev nD) → (b : Ref sig .tc) → Buf (Elt Ideal) ((c : Thread nD τ).loc b)) (c : Dev nD)
      (hb1 : S1x64.BroadcastsInDim S100000x64 (![0, 1] : Fin 2 → Fin S100000x64.rank))
      (hb2 : S_.BroadcastsInDim S100000x64 (![] : Fin 0 → Fin S100000x64.rank)),
    (dat1 (F := Ideal) V c).arrAt 2 cfg1.N
      = maximumf (addf (V c main_v43) (broadcastInDim S100000x64 ![0, 1] hb1 (V c main_v44)))
          (broadcastInDim S100000x64 ![] hb2 (constant (F := Ideal) S_ .f32 0x00000000#32)))
  (hmm₂ : ∀ (V : (c : Dev nD) → (b : Ref sig .tc) → Buf (Elt Ideal) ((c : Thread nD τ).loc b)) (c : Dev nD),
    (dat2 (F := Ideal) V c).arrAt 2 cfg2.N
      = Cert.LibMatProd.matProd (M := 100000) (K := 64) (N := 64) (V c main_v45) (V c main_arg4))
  (hbr₃ : ∀ (V : (c : Dev nD) → (b : Ref sig .tc) → Buf (Elt Ideal) ((c : Thread nD τ).loc b)) (c : Dev nD)
      (hb1 : S1x64.BroadcastsInDim S100000x64 (![0, 1] : Fin 2 → Fin S100000x64.rank))
      (hb2 : S_.BroadcastsInDim S100000x64 (![] : Fin 0 → Fin S100000x64.rank)),
    (dat3 (F := Ideal) V c).arrAt 2 cfg3.N
      = maximumf (addf (V c main_v59) (broadcastInDim S100000x64 ![0, 1] hb1 (V c main_v60)))
          (broadcastInDim S100000x64 ![] hb2 (constant (F := Ideal) S_ .f32 0x00000000#32)))

/-! ## The first layer -/

include hmm₀ in
/-- After the first launch its output array holds the host's product of the features and the first weight matrix. -/
theorem W4_v30 : W4 m ρ c (Proc.devRef .tc main_v30) = (Host.dotGeneral (F := Ideal) (φ₁ := .f32) (φ₂ := .f32) Cert.ReferenceIdeal.dot_S100000x128_S128x64_S100000x64_1_0_0_1_n_n none (W0 m ρ c (Proc.devRef .tc main_arg0)) (W0 m ρ c (Proc.devRef .tc main_arg2))) := by
  refine (W4_arr m ρ c 2).trans ?_
  refine (hmm₀ (V3 m ρ) c).trans ?_
  have e0 : V3 m ρ c main_arg0 = (W0 m ρ c (Proc.devRef .tc main_arg0)) := W3_arg0 m ρ c
  have e2 : V3 m ρ c main_arg2 = (W0 m ρ c (Proc.devRef .tc main_arg2)) := W3_arg2 m ρ c
  rw [e0, e2]
  exact (Cert.LibMatProd.dotGeneral_eq Cert.ReferenceIdeal.dot_S100000x128_S128x64_S100000x64_1_0_0_1_n_n rfl rfl rfl rfl rfl rfl _ _).symm

include hmm₀ in
theorem W5_v43 : W5 m ρ c (Proc.devRef .tc main_v43) = (Cert.ReferenceIdeal.Spec.agg (F := Ideal) (Cert.ReferenceIdeal.Spec.srcOf (W0 m ρ c (Proc.devRef .tc main_arg1))) (Cert.ReferenceIdeal.Spec.dstOf (W0 m ρ c (Proc.devRef .tc main_arg1))) (Cert.ReferenceIdeal.Spec.normOf (F := Ideal) (Cert.ReferenceIdeal.Spec.srcOf (W0 m ρ c (Proc.devRef .tc main_arg1))) (Cert.ReferenceIdeal.Spec.dstOf (W0 m ρ c (Proc.devRef .tc main_arg1)))) (Host.dotGeneral (F := Ideal) (φ₁ := .f32) (φ₂ := .f32) Cert.ReferenceIdeal.dot_S100000x128_S128x64_S100000x64_1_0_0_1_n_n none (W0 m ρ c (Proc.devRef .tc main_arg0)) (W0 m ρ c (Proc.devRef .tc main_arg2)))) := by
  refine (Cert.KernelIdeal.HostReads.s1_v43 (W4 m ρ c)).trans ?_
  have h3 : W4 m ρ c (Proc.devRef .tc main_v3) = (Cert.ReferenceIdeal.Spec.srcOf (W0 m ρ c (Proc.devRef .tc main_arg1))) := (W4_of_ne m ρ c main_v3 (by decide)).trans (W3_v3 m ρ c)
  have h6 : W4 m ρ c (Proc.devRef .tc main_v6) = (Cert.ReferenceIdeal.Spec.dstOf (W0 m ρ c (Proc.devRef .tc main_arg1))) := (W4_of_ne m ρ c main_v6 (by decide)).trans (W3_v6 m ρ c)
  have h29 : W4 m ρ c (Proc.devRef .tc main_v29) = (Cert.ReferenceIdeal.Spec.normOf (F := Ideal) (Cert.ReferenceIdeal.Spec.srcOf (W0 m ρ c (Proc.devRef .tc main_arg1))) (Cert.ReferenceIdeal.Spec.dstOf (W0 m ρ c (Proc.devRef .tc main_arg1)))) := (W4_of_ne m ρ c main_v29 (by decide)).trans (W3_v29 m ρ c)
  rw [h3, h6, h29, W4_v30 m ρ c hmm₀]

theorem W5_v44 : W5 m ρ c (Proc.devRef .tc main_v44)
    = broadcastInDim S1x64 ![1] Cert.ReferenceIdeal.Gen.bcast_S64_S1x64_1 (W0 m ρ c (Proc.devRef .tc main_arg3)) := by
  refine (Cert.KernelIdeal.HostReads.s1_v44 (W4 m ρ c)).trans ?_
  have h : W4 m ρ c (Proc.devRef .tc main_arg3) = (W0 m ρ c (Proc.devRef .tc main_arg3)) := (W4_of_ne m ρ c main_arg3 (by decide)).trans (W3_arg3 m ρ c)
  rw [h]
  exact row_of_reshape _ _ _

include hmm₀ hbr₁ in
/-- After the first bias-and-clamp launch its output array holds the first layer's activations. -/
theorem W6_v45 : W6 m ρ c (Proc.devRef .tc main_v45) = (Cert.ReferenceIdeal.Spec.act (F := Ideal) (Cert.ReferenceIdeal.Spec.agg (F := Ideal) (Cert.ReferenceIdeal.Spec.srcOf (W0 m ρ c (Proc.devRef .tc main_arg1))) (Cert.ReferenceIdeal.Spec.dstOf (W0 m ρ c (Proc.devRef .tc main_arg1))) (Cert.ReferenceIdeal.Spec.normOf (F := Ideal) (Cert.ReferenceIdeal.Spec.srcOf (W0 m ρ c (Proc.devRef .tc main_arg1))) (Cert.ReferenceIdeal.Spec.dstOf (W0 m ρ c (Proc.devRef .tc main_arg1)))) (Host.dotGeneral (F := Ideal) (φ₁ := .f32) (φ₂ := .f32) Cert.ReferenceIdeal.dot_S100000x128_S128x64_S100000x64_1_0_0_1_n_n none (W0 m ρ c (Proc.devRef .tc main_arg0)) (W0 m ρ c (Proc.devRef .tc main_arg2)))) (W0 m ρ c (Proc.devRef .tc main_arg3))) := by
  refine (W6_arr m ρ c 2).trans ?_
  refine (hbr₁ (V5 m ρ) c Cert.ReferenceIdeal.Gen.bcast_S1x64_S100000x64_0_1 Cert.ReferenceIdeal.Gen.bcast_S_S100000x64).trans ?_
  have e43 : V5 m ρ c main_v43 = (Cert.ReferenceIdeal.Spec.agg (F := Ideal) (Cert.ReferenceIdeal.Spec.srcOf (W0 m ρ c (Proc.devRef .tc main_arg1))) (Cert.ReferenceIdeal.Spec.dstOf (W0 m ρ c (Proc.devRef .tc main_arg1))) (Cert.ReferenceIdeal.Spec.normOf (F := Ideal) (Cert.ReferenceIdeal.Spec.srcOf (W0 m ρ c (Proc.devRef .tc main_arg1))) (Cert.ReferenceIdeal.Spec.dstOf (W0 m ρ c (Proc.devRef .tc main_arg1)))) (Host.dotGeneral (F := Ideal) (φ₁ := .f32) (φ₂ := .f32) Cert.ReferenceIdeal.dot_S100000x128_S128x64_S100000x64_1_0_0_1_n_n none (W0 m ρ c (Proc.devRef .tc main_arg0)) (W0 m ρ c (Proc.devRef .tc main_arg2)))) := W5_v43 m ρ c hmm₀
  have e44 : V5 m ρ c main_v44 = _ := W5_v44 m ρ c
  rw [e43, e44]
  rfl

/-! ## The second layer -/

/-- What the second layer's message passing reads besides the product: carried from the first launch's entry. -/
theorem W5_keep : W5 m ρ c (Proc.devRef .tc main_v3) = (Cert.ReferenceIdeal.Spec.srcOf (W0 m ρ c (Proc.devRef .tc main_arg1))) ∧ W5 m ρ c (Proc.devRef .tc main_v6) = (Cert.ReferenceIdeal.Spec.dstOf (W0 m ρ c (Proc.devRef .tc main_arg1))) ∧ W5 m ρ c (Proc.devRef .tc main_v29) = (Cert.ReferenceIdeal.Spec.normOf (F := Ideal) (Cert.ReferenceIdeal.Spec.srcOf (W0 m ρ c (Proc.devRef .tc main_arg1))) (Cert.ReferenceIdeal.Spec.dstOf (W0 m ρ c (Proc.devRef .tc main_arg1))))
    ∧ W5 m ρ c (Proc.devRef .tc main_arg4) = (W0 m ρ c (Proc.devRef .tc main_arg4)) ∧ W5 m ρ c (Proc.devRef .tc main_arg5) = (W0 m ρ c (Proc.devRef .tc main_arg5)) :=
  ⟨(Cert.KernelIdeal.HostReads.s1_keep (W4 m ρ c)).1.trans ((W4_of_ne m ρ c main_v3 (by decide)).trans (W3_v3 m ρ c)),
   (Cert.KernelIdeal.HostReads.s1_keep (W4 m ρ c)).2.1.trans ((W4_of_ne m ρ c main_v6 (by decide)).trans (W3_v6 m ρ c)),
   (Cert.KernelIdeal.HostReads.s1_keep (W4 m ρ c)).2.2.1.trans ((W4_of_ne m ρ c main_v29 (by decide)).trans (W3_v29 m ρ c)),
   (Cert.KernelIdeal.HostReads.s1_keep (W4 m ρ c)).2.2.2.1.trans ((W4_of_ne m ρ c main_arg4 (by decide)).trans (W3_arg4 m ρ c)),
   (Cert.KernelIdeal.HostReads.s1_keep (W4 m ρ c)).2.2.2.2.trans ((W4_of_ne m ρ c main_arg5 (by decide)).trans (W3_arg5 m ρ c))⟩

include hmm₀ hbr₁ hmm₂ in
/-- After the second product's launch its output array holds the host's product of the activations and the second
    weight matrix. -/
theorem W7_v46 : W7 m ρ c (Proc.devRef .tc main_v46) = (Host.dotGeneral (F := Ideal) (φ₁ := .f32) (φ₂ := .f32) Cert.ReferenceIdeal.dot_S100000x64_S64x64_S100000x64_1_0_0_1_n_n none (Cert.ReferenceIdeal.Spec.act (F := Ideal) (Cert.ReferenceIdeal.Spec.agg (F := Ideal) (Cert.ReferenceIdeal.Spec.srcOf (W0 m ρ c (Proc.devRef .tc main_arg1))) (Cert.ReferenceIdeal.Spec.dstOf (W0 m ρ c (Proc.devRef .tc main_arg1))) (Cert.ReferenceIdeal.Spec.normOf (F := Ideal) (Cert.ReferenceIdeal.Spec.srcOf (W0 m ρ c (Proc.devRef .tc main_arg1))) (Cert.ReferenceIdeal.Spec.dstOf (W0 m ρ c (Proc.devRef .tc main_arg1)))) (Host.dotGeneral (F := Ideal) (φ₁ := .f32) (φ₂ := .f32) Cert.ReferenceIdeal.dot_S100000x128_S128x64_S100000x64_1_0_0_1_n_n none (W0 m ρ c (Proc.devRef .tc main_arg0)) (W0 m ρ c (Proc.devRef .tc main_arg2)))) (W0 m ρ c (Proc.devRef .tc main_arg3))) (W0 m ρ c (Proc.devRef .tc main_arg4))) := by
  refine (W7_arr m ρ c 2).trans ?_
  refine (hmm₂ (V6 m ρ) c).trans ?_
  have e45 : V6 m ρ c main_v45 = (Cert.ReferenceIdeal.Spec.act (F := Ideal) (Cert.ReferenceIdeal.Spec.agg (F := Ideal) (Cert.ReferenceIdeal.Spec.srcOf (W0 m ρ c (Proc.devRef .tc main_arg1))) (Cert.ReferenceIdeal.Spec.dstOf (W0 m ρ c (Proc.devRef .tc main_arg1))) (Cert.ReferenceIdeal.Spec.normOf (F := Ideal) (Cert.ReferenceIdeal.Spec.srcOf (W0 m ρ c (Proc.devRef .tc main_arg1))) (Cert.ReferenceIdeal.Spec.dstOf (W0 m ρ c (Proc.devRef .tc main_arg1)))) (Host.dotGeneral (F := Ideal) (φ₁ := .f32) (φ₂ := .f32) Cert.ReferenceIdeal.dot_S100000x128_S128x64_S100000x64_1_0_0_1_n_n none (W0 m ρ c (Proc.devRef .tc main_arg0)) (W0 m ρ c (Proc.devRef .tc main_arg2)))) (W0 m ρ c (Proc.devRef .tc main_arg3))) := W6_v45 m ρ c hmm₀ hbr₁
  have e4 : V6 m ρ c main_arg4 = (W0 m ρ c (Proc.devRef .tc main_arg4)) := (W6_of_ne m ρ c main_arg4 (by decide)).trans (W5_keep m ρ c).2.2.2.1
  rw [e45, e4]
  exact (Cert.LibMatProd.dotGeneral_eq Cert.ReferenceIdeal.dot_S100000x64_S64x64_S100000x64_1_0_0_1_n_n rfl rfl rfl rfl rfl rfl _ _).symm

include hmm₀ hbr₁ hmm₂ in
theorem W8_v59 : W8 m ρ c (Proc.devRef .tc main_v59) = (Cert.ReferenceIdeal.Spec.agg (F := Ideal) (Cert.ReferenceIdeal.Spec.srcOf (W0 m ρ c (Proc.devRef .tc main_arg1))) (Cert.ReferenceIdeal.Spec.dstOf (W0 m ρ c (Proc.devRef .tc main_arg1))) (Cert.ReferenceIdeal.Spec.normOf (F := Ideal) (Cert.ReferenceIdeal.Spec.srcOf (W0 m ρ c (Proc.devRef .tc main_arg1))) (Cert.ReferenceIdeal.Spec.dstOf (W0 m ρ c (Proc.devRef .tc main_arg1)))) (Host.dotGeneral (F := Ideal) (φ₁ := .f32) (φ₂ := .f32) Cert.ReferenceIdeal.dot_S100000x64_S64x64_S100000x64_1_0_0_1_n_n none (Cert.ReferenceIdeal.Spec.act (F := Ideal) (Cert.ReferenceIdeal.Spec.agg (F := Ideal) (Cert.ReferenceIdeal.Spec.srcOf (W0 m ρ c (Proc.devRef .tc main_arg1))) (Cert.ReferenceIdeal.Spec.dstOf (W0 m ρ c (Proc.devRef .tc main_arg1))) (Cert.ReferenceIdeal.Spec.normOf (F := Ideal) (Cert.ReferenceIdeal.Spec.srcOf (W0 m ρ c (Proc.devRef .tc main_arg1))) (Cert.ReferenceIdeal.Spec.dstOf (W0 m ρ c (Proc.devRef .tc main_arg1)))) (Host.dotGeneral (F := Ideal) (φ₁ := .f32) (φ₂ := .f32) Cert.ReferenceIdeal.dot_S100000x128_S128x64_S100000x64_1_0_0_1_n_n none (W0 m ρ c (Proc.devRef .tc main_arg0)) (W0 m ρ c (Proc.devRef .tc main_arg2)))) (W0 m ρ c (Proc.devRef .tc main_arg3))) (W0 m ρ c (Proc.devRef .tc main_arg4)))) := by
  refine (Cert.KernelIdeal.HostReads.s3_v59 (W7 m ρ c)).trans ?_
  have h3 : W7 m ρ c (Proc.devRef .tc main_v3) = (Cert.ReferenceIdeal.Spec.srcOf (W0 m ρ c (Proc.devRef .tc main_arg1))) :=
    (W7_of_ne m ρ c main_v3 (by decide)).trans ((W6_of_ne m ρ c main_v3 (by decide)).trans (W5_keep m ρ c).1)
  have h6 : W7 m ρ c (Proc.devRef .tc main_v6) = (Cert.ReferenceIdeal.Spec.dstOf (W0 m ρ c (Proc.devRef .tc main_arg1))) :=
    (W7_of_ne m ρ c main_v6 (by decide)).trans ((W6_of_ne m ρ c main_v6 (by decide)).trans (W5_keep m ρ c).2.1)
  have h29 : W7 m ρ c (Proc.devRef .tc main_v29) = (Cert.ReferenceIdeal.Spec.normOf (F := Ideal) (Cert.ReferenceIdeal.Spec.srcOf (W0 m ρ c (Proc.devRef .tc main_arg1))) (Cert.ReferenceIdeal.Spec.dstOf (W0 m ρ c (Proc.devRef .tc main_arg1)))) :=
    (W7_of_ne m ρ c main_v29 (by decide)).trans ((W6_of_ne m ρ c main_v29 (by decide)).trans (W5_keep m ρ c).2.2.1)
  rw [h3, h6, h29, W7_v46 m ρ c hmm₀ hbr₁ hmm₂]

theorem W8_v60 : W8 m ρ c (Proc.devRef .tc main_v60)
    = broadcastInDim S1x64 ![1] Cert.ReferenceIdeal.Gen.bcast_S64_S1x64_1 (W0 m ρ c (Proc.devRef .tc main_arg5)) := by
  refine (Cert.KernelIdeal.HostReads.s3_v60 (W7 m ρ c)).trans ?_
  have h : W7 m ρ c (Proc.devRef .tc main_arg5) = (W0 m ρ c (Proc.devRef .tc main_arg5)) :=
    (W7_of_ne m ρ c main_arg5 (by decide)).trans ((W6_of_ne m ρ c main_arg5 (by decide)).trans (W5_keep m ρ c).2.2.2.2)
  rw [h]
  exact row_of_reshape _ _ _

include hmm₀ hbr₁ hmm₂ hbr₃ in
/-- THE RESULT: after the last launch the result array holds the graph convolution of the launch contents of the
    arguments. -/
theorem result_eq : V9 m ρ c main_v61
    = Cert.ReferenceIdeal.Spec.gcn (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  refine (W9_arr m ρ c 2).trans ?_
  refine (hbr₃ (V8 m ρ) c Cert.ReferenceIdeal.Gen.bcast_S1x64_S100000x64_0_1 Cert.ReferenceIdeal.Gen.bcast_S_S100000x64).trans ?_
  have e59 : V8 m ρ c main_v59 = (Cert.ReferenceIdeal.Spec.agg (F := Ideal) (Cert.ReferenceIdeal.Spec.srcOf (W0 m ρ c (Proc.devRef .tc main_arg1))) (Cert.ReferenceIdeal.Spec.dstOf (W0 m ρ c (Proc.devRef .tc main_arg1))) (Cert.ReferenceIdeal.Spec.normOf (F := Ideal) (Cert.ReferenceIdeal.Spec.srcOf (W0 m ρ c (Proc.devRef .tc main_arg1))) (Cert.ReferenceIdeal.Spec.dstOf (W0 m ρ c (Proc.devRef .tc main_arg1)))) (Host.dotGeneral (F := Ideal) (φ₁ := .f32) (φ₂ := .f32) Cert.ReferenceIdeal.dot_S100000x64_S64x64_S100000x64_1_0_0_1_n_n none (Cert.ReferenceIdeal.Spec.act (F := Ideal) (Cert.ReferenceIdeal.Spec.agg (F := Ideal) (Cert.ReferenceIdeal.Spec.srcOf (W0 m ρ c (Proc.devRef .tc main_arg1))) (Cert.ReferenceIdeal.Spec.dstOf (W0 m ρ c (Proc.devRef .tc main_arg1))) (Cert.ReferenceIdeal.Spec.normOf (F := Ideal) (Cert.ReferenceIdeal.Spec.srcOf (W0 m ρ c (Proc.devRef .tc main_arg1))) (Cert.ReferenceIdeal.Spec.dstOf (W0 m ρ c (Proc.devRef .tc main_arg1)))) (Host.dotGeneral (F := Ideal) (φ₁ := .f32) (φ₂ := .f32) Cert.ReferenceIdeal.dot_S100000x128_S128x64_S100000x64_1_0_0_1_n_n none (W0 m ρ c (Proc.devRef .tc main_arg0)) (W0 m ρ c (Proc.devRef .tc main_arg2)))) (W0 m ρ c (Proc.devRef .tc main_arg3))) (W0 m ρ c (Proc.devRef .tc main_arg4)))) := W8_v59 m ρ c hmm₀ hbr₁ hmm₂
  have e60 : V8 m ρ c main_v60 = _ := W8_v60 m ρ c
  rw [e59, e60]
  rfl

end Cert.KernelIdeal.RunValue

end
-- ==== Proof.RegionMatmul.lean ====
/-
  What the two matrix-product regions leave in their output arrays.

  Each of the two regions runs a grid of 10 points. Point t loads rows 10000·t … 10000·t + 9999 of the left array
  (its row block) and the whole right array, multiplies the block by the right array, and writes the product back to
  the same rows of the output array. Entry (r, q) of the output therefore lies in point r / 10000's block, at row
  r % 10000 of it, and is the sum over k of left (r, k) · right (k, q). So the output array, as one function of its
  index, is the matrix product of the two arrays as the region finds them — whatever those contents are.
-/
import proofs.«105514_j69896297775675_1_alg».proof.Proof.Gen.KernelIdeal.Frame
import proofs.«105514_j69896297775675_1_alg».proof.Proof.LibMatProd
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open Cert.LibMatProd (matProd)

variable (V : (c : Dev nD) → (b : Ref sig .tc) → Buf (Elt Ideal) ((c : Thread nD τ).loc b))

/-- The zero offsets of a whole-buffer load or store, as the constant function. -/
theorem zero_offsets : (![0, 0] : Fin 2 → Nat) = fun _ => 0 := funext fun a => by fin_cases a <;> rfl

/-! ## Region 0: a [100000, 128] array by a [128, 64] array -/

/-- The body's payload at entry (p, q) of a block: row p of the left block contracted with column q of the right
    block (rounding both operands to a narrower float format is the identity on the extended reals). -/
theorem pay0_apply (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  exact Cert.LibMatProd.matmul_trunc_apply dot_S10000x128_S128x64_S10000x64_1_0_0_1_n_n rfl rfl rfl rfl rfl rfl
    bitsLt_bf16_f32 x0 x1 (ix2 p q)

/-- A block's product is a block of the whole product: when row p of the left block is row (i 0) of the left array
    and column q of the right block is column (i 1) of the right array, entry (p, q) of the block's product is entry
    i of the arrays' product. -/
theorem pay0_eq_matProd (x0 : Vec Ideal S10000x128 .f32) (x1 : Vec Ideal S128x64 .f32)
    (A : S100000x128.Idx → EReal) (B : S128x64.Idx → EReal) (p : Fin 10000) (q : Fin 64) (i : S100000x64.Idx)
    (h0 : ∀ k : Fin 128, x0 (ix2 p k) = A (ix2 (i 0) k)) (h1 : ∀ k : Fin 128, x1 (ix2 k q) = B (ix2 k (i 1))) :
    k0_pay1 x0 x1 (ix2 p q) = matProd A B i := by
  rw [pay0_apply]
  exact Finset.sum_congr rfl fun k _ => by rw [h0 k, h1 k]

/-- The printed index maps, decided over the grid: the left window's row block index is the output's and its column
    block index is 0; the right window's one block is its whole array; the output's row block index is the point
    and its column block index is 0. -/
theorem index_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the product of the two arrays as the region finds them. -/
theorem flushed0_eq (c : Dev nD) (t : Fin cfg0.N) :
    (dat0 (F := Ideal) V c).flushed 2 t
      = ((cfg0.win 2).blk t).view.read (Elt Ideal)
          (matProd (M := 100000) (K := 128) (N := 64) (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x64) zero_offsets]
  obtain ⟨e0, e1, e2, e3, e4, e5⟩ := index_facts0 t
  funext j
  obtain ⟨p, q, rfl⟩ : ∃ (p : Fin 10000) (q : Fin 64), j = ix2 p q := ⟨j 0, j 1, eq_ix2 (n0 := 10000) (n1 := 64) j⟩
  show k0_pay1 (iblk0 V c 0 t) (iblk0 V c 1 t) (ix2 p q)
    = matProd (M := 100000) (K := 128) (N := 64) (V c main_arg0) (V c main_arg2) (((cfg0.win 2).blk t).view.emb (ix2 p q))
  refine pay0_eq_matProd _ _ _ _ p q _ (fun k => ?_) (fun k => ?_)
  · -- row p of the left block is row (block index · 10000 + p) of the left array
    show V c main_arg0 (((cfg0.win 0).blk t).view.emb (ix2 p k))
      = V c main_arg0 (ix2 ((((cfg0.win 2).blk t).view.emb (ix2 p q)) 0) k)
    refine congrArg (V c main_arg0) (funext fun a => Fin.ext ?_)
    match a with
    | ⟨0, _⟩ =>
      show win0_0.index t (0 : Fin 2) * 10000 + 1 * p.val = win0_2.index t (0 : Fin 2) * 10000 + 1 * p.val
      omega
    | ⟨1, _⟩ =>
      show win0_0.index t (1 : Fin 2) * 128 + 1 * k.val = k.val
      omega
  · -- the right block is the right array
    show V c main_arg2 (((cfg0.win 1).blk t).view.emb (ix2 k q))
      = V c main_arg2 (ix2 k ((((cfg0.win 2).blk t).view.emb (ix2 p q)) 1))
    refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 64 + 1 * q.val = win0_2.index t (1 : Fin 2) * 64 + 1 * q.val
      omega

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- The blocks tile the output array: row r is in point r / 10000's block. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by rw [show cfg0.N = 10 from N_0]; omega⟩, rfl⟩
  obtain ⟨e0, e1, e2, e3, e4, e5⟩ := index_facts0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- The output array after region 0: the product of the [100000, 128] array and the [128, 64] array as the
    region finds them. -/
theorem final0 (c : Dev nD) :
    (dat0 (F := Ideal) V c).arrAt 2 cfg0.N
      = Cert.LibMatProd.matProd (M := 100000) (K := 128) (N := 64) (V c main_arg0) (V c main_arg2) :=
  (dat0 (F := Ideal) V c).arrAt_eq_of_cover 2 _ (fun t _ => flushed0_eq V c t) (fun i => cover0 i)

/-! ## Region 2: a [100000, 64] array by a [64, 64] array -/

/-- The body's payload at entry (p, q) of a block: row p of the left block contracted with column q of the right
    block (a reshape of the left block to its own shape is the identity, and so is rounding both operands to a
    narrower float format on the extended reals). -/
theorem pay2_apply (x0 : Vec Ideal S10000x64 .f32) (x1 : Vec Ideal S64x64 .f32) (p : Fin 10000) (q : Fin 64) :
    k2_pay1 x0 x1 (ix2 p q) = ∑ k : Fin 64, x0 (ix2 p k) * x1 (ix2 k q) := by
  unfold k2_pay1
  rw [shapeCast_self]
  exact Cert.LibMatProd.matmul_trunc_apply dot_S10000x64_S64x64_S10000x64_1_0_0_1_n_n rfl rfl rfl rfl rfl rfl
    bitsLt_bf16_f32 x0 x1 (ix2 p q)

/-- A block's product is a block of the whole product: when row p of the left block is row (i 0) of the left array
    and column q of the right block is column (i 1) of the right array, entry (p, q) of the block's product is entry
    i of the arrays' product. -/
theorem pay2_eq_matProd (x0 : Vec Ideal S10000x64 .f32) (x1 : Vec Ideal S64x64 .f32)
    (A : S100000x64.Idx → EReal) (B : S64x64.Idx → EReal) (p : Fin 10000) (q : Fin 64) (i : S100000x64.Idx)
    (h0 : ∀ k : Fin 64, x0 (ix2 p k) = A (ix2 (i 0) k)) (h1 : ∀ k : Fin 64, x1 (ix2 k q) = B (ix2 k (i 1))) :
    k2_pay1 x0 x1 (ix2 p q) = matProd A B i := by
  rw [pay2_apply]
  exact Finset.sum_congr rfl fun k _ => by rw [h0 k, h1 k]

/-- The printed index maps, decided over the grid: the left window's row block index is the output's and its column
    block index is 0; the right window's one block is its whole array; the output's row block index is the point
    and its column block index is 0. -/
theorem index_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is block t of the product of the two arrays as the region finds them. -/
theorem flushed2_eq (c : Dev nD) (t : Fin cfg2.N) :
    (dat2 (F := Ideal) V c).flushed 2 t
      = ((cfg2.win 2).blk t).view.read (Elt Ideal)
          (matProd (M := 100000) (K := 64) (N := 64) (V c main_v45) (V c main_arg4)) := by
  show (cfg2.win 2).cut (grid2.coords t) ((dat2 V c).after 2 t) = _
  rw [after2_2]
  unfold out2_2
  rw [View.canon_unit_zero zero_offsets]
  simp only [View.ld_unit_zero (S := S10000x64) zero_offsets, View.ld_unit_zero (S := S64x64) zero_offsets]
  obtain ⟨e0, e1, e2, e3, e4, e5⟩ := index_facts2 t
  funext j
  obtain ⟨p, q, rfl⟩ : ∃ (p : Fin 10000) (q : Fin 64), j = ix2 p q := ⟨j 0, j 1, eq_ix2 (n0 := 10000) (n1 := 64) j⟩
  show k2_pay1 (iblk2 V c 0 t) (iblk2 V c 1 t) (ix2 p q)
    = matProd (M := 100000) (K := 64) (N := 64) (V c main_v45) (V c main_arg4) (((cfg2.win 2).blk t).view.emb (ix2 p q))
  refine pay2_eq_matProd _ _ _ _ p q _ (fun k => ?_) (fun k => ?_)
  · -- row p of the left block is row (block index · 10000 + p) of the left array
    show V c main_v45 (((cfg2.win 0).blk t).view.emb (ix2 p k))
      = V c main_v45 (ix2 ((((cfg2.win 2).blk t).view.emb (ix2 p q)) 0) k)
    refine congrArg (V c main_v45) (funext fun a => Fin.ext ?_)
    match a with
    | ⟨0, _⟩ =>
      show win2_0.index t (0 : Fin 2) * 10000 + 1 * p.val = win2_2.index t (0 : Fin 2) * 10000 + 1 * p.val
      omega
    | ⟨1, _⟩ =>
      show win2_0.index t (1 : Fin 2) * 64 + 1 * k.val = k.val
      omega
  · -- the right block is the right array
    show V c main_arg4 (((cfg2.win 1).blk t).view.emb (ix2 k q))
      = V c main_arg4 (ix2 k ((((cfg2.win 2).blk t).view.emb (ix2 p q)) 1))
    refine congrArg (V c main_arg4) (funext fun a => Fin.ext ?_)
    match a with
    | ⟨0, _⟩ =>
      show win2_1.index t (0 : Fin 2) * 64 + 1 * k.val = k.val
      omega
    | ⟨1, _⟩ =>
      show win2_1.index t (1 : Fin 2) * 64 + 1 * q.val = win2_2.index t (1 : Fin 2) * 64 + 1 * q.val
      omega

/-- An index of the output array is in point t's block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v46).slice (win2_2.rect t)).set ↔ _
  rw [View.set_slice_whole, Rect.mem_set_unit]
  exact Iff.rfl

/-- The blocks tile the output array: row r is in point r / 10000's block. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, by rw [show cfg2.N = 10 from N_2]; omega⟩, rfl⟩
  obtain ⟨e0, e1, e2, e3, e4, e5⟩ := index_facts2 t
  refine ⟨t, flush2_2 t, ?_⟩
  rw [mem_blk2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 64 ≤ (i 1).val ∧ (i 1).val < win2_2.index t (1 : Fin 2) * 64 + 64
    omega

/-- The output array after region 2: the product of the [100000, 64] array and the [64, 64] array as the
    region finds them. -/
theorem final2 (c : Dev nD) :
    (dat2 (F := Ideal) V c).arrAt 2 cfg2.N
      = Cert.LibMatProd.matProd (M := 100000) (K := 64) (N := 64) (V c main_v45) (V c main_arg4) :=
  (dat2 (F := Ideal) V c).arrAt_eq_of_cover 2 _ (fun t _ => flushed2_eq V c t) (fun i => cover2 i)

end Cert.KernelIdeal.RegionValue

end
-- ==== Proof.RegionBiasRelu.lean ====
/- What the two bias+relu regions leave in their output arrays

Regions 1 and 3 each run ten grid points over a 100000×64 array x and a 1×64 bias b. Point t holds rows
t·10000 … t·10000 + 9999 of x (a block's coordinate is block index × 10000 + the coordinate inside the block, and
every block spans all 64 columns from column 0) together with the whole bias, and stores at entry (p, q) of its
block the value max (x(t·10000 + p, q) + b(0, q)) 0 on the extended reals. The ten blocks tile the array exactly,
so after the region the output array is relu(x + b) as one whole-array expression, written in the reference
program's operations: the bias broadcast over the rows, added to the array, and the maximum taken with the zero
splat made from a rank-0 constant. The statements hold for any contents of the buffers at the region's entry. -/
import proofs.«105514_j69896297775675_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-! ## relu(x + b) as one whole-array expression, and what it holds at an entry -/

/-- The rectified biased array in the host's spelling: the 1×64 bias broadcast over the 100000 rows, added to the
    array, and the maximum taken with the zero splat made from a rank-0 constant. -/
abbrev biasRelu (hb1 : S1x64.BroadcastsInDim S100000x64 (![0, 1] : Fin 2 → Fin S100000x64.rank))
    (hb2 : S_.BroadcastsInDim S100000x64 (![] : Fin 0 → Fin S100000x64.rank))
    (x : FVec Ideal S100000x64 .f32) (b : FVec Ideal S1x64 .f32) : FVec Ideal S100000x64 .f32 :=
  maximumf (addf x (broadcastInDim S100000x64 ![0, 1] hb1 b))
    (broadcastInDim S100000x64 ![] hb2 (constant (F := Ideal) S_ .f32 0x00000000#32))

/-- At entry (r, q) the whole-array expression is max (x(r, q) + b(0, q)) 0 on the extended reals: the row
    broadcast reads the bias's one row at column q, the rank-0 splat reads its one element. -/
theorem biasRelu_apply (hb1 : S1x64.BroadcastsInDim S100000x64 (![0, 1] : Fin 2 → Fin S100000x64.rank))
    (hb2 : S_.BroadcastsInDim S100000x64 (![] : Fin 0 → Fin S100000x64.rank))
    (x : FVec Ideal S100000x64 .f32) (b : FVec Ideal S1x64 .f32) (r : Fin 100000) (q : Fin 64) :
    biasRelu hb1 hb2 x b (ix2 r q)
      = max (x (ix2 r q) + b (ix2 (0 : Fin 1) q)) (Ideal.ofBits .f32 0x00000000#32) := by
  show max (x (ix2 r q) + broadcastInDim S100000x64 ![0, 1] hb1 b (ix2 r q))
      (broadcastInDim S100000x64 ![] hb2 (constant (F := Ideal) S_ .f32 0x00000000#32) (ix2 r q)) = _
  rw [broadcastInDim_apply (![0, 1] : Fin 2 → Fin S100000x64.rank) hb1 b (ix2 r q) (ix2 (0 : Fin 1) q)
        (fun a => by match a with | ⟨0, _⟩ => rfl | ⟨1, _⟩ => rfl),
    broadcastInDim_apply (![] : Fin 0 → Fin S100000x64.rank) hb2 (constant (F := Ideal) S_ .f32 0x00000000#32)
        (ix2 r q) ix0 (fun a => a.elim0)]
  rfl

/-! ## The kernel's payload at an entry of its block -/

/-- The bias+relu body's stored value at (p, q) of its 10000×64 block: the same-shape casts are identities, the
    1×64 block broadcast over the rows reads b(0, q), and the zero is the broadcast of the zero word's scalar. -/
theorem pay1_apply (b : Vec Ideal S1x64 .f32) (x : Vec Ideal S10000x64 .f32) (p : Fin 10000) (q : Fin 64) :
    k1_pay1 b x (ix2 p q)
      = max (x (ix2 p q) + b (ix2 (0 : Fin 1) q)) (Ideal.ofBits .f32 0x00000000#32) := by
  unfold k1_pay1
  show max (shapeCast S10000x64 x shapeCasts_S10000x64_S10000x64 (ix2 p q)
        + broadcastTo S10000x64 (shapeCast S1x64 (shapeCast S1x64 b shapeCasts_S1x64_S1x64) shapeCasts_S1x64_S1x64)
            broadcasts_S1x64_S10000x64 (ix2 p q))
      (Ideal.ofBits .f32 0x00000000#32) = _
  rw [shapeCast_self, shapeCast_self, shapeCast_self, broadcastTo_1b_ab_apply]

/-- The payload at a block entry against the whole-array expression at an array entry: equal as soon as the
    block's input entry is the array's input entry there, the bias blocks agree, and the two entries share their
    column. Here b, x are any block contents and X, B any array contents. -/
theorem pay1_eq_biasRelu (hb1 : S1x64.BroadcastsInDim S100000x64 (![0, 1] : Fin 2 → Fin S100000x64.rank))
    (hb2 : S_.BroadcastsInDim S100000x64 (![] : Fin 0 → Fin S100000x64.rank))
    (b : Vec Ideal S1x64 .f32) (x : Vec Ideal S10000x64 .f32)
    (X : FVec Ideal S100000x64 .f32) (B : FVec Ideal S1x64 .f32) (j : S10000x64.Idx) (i : S100000x64.Idx)
    (hx : x j = X i) (hB : ∀ q : Fin 64, b (ix2 (0 : Fin 1) q) = B (ix2 (0 : Fin 1) q))
    (hq : (i 1).val = (j 1).val) :
    k1_pay1 b x j = biasRelu hb1 hb2 X B i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext hq
  rw [pay1_apply, biasRelu_apply, hx, hB]

/-! ## Region 3's payload: the same operations -/

/-- Region 3's body performs the same operations as region 1's: its stored value at (p, q) is again
    max (x(p, q) + b(0, q)) 0. -/
theorem pay3_apply (b : Vec Ideal S1x64 .f32) (x : Vec Ideal S10000x64 .f32) (p : Fin 10000) (q : Fin 64) :
    k3_pay1 b x (ix2 p q)
      = max (x (ix2 p q) + b (ix2 (0 : Fin 1) q)) (Ideal.ofBits .f32 0x00000000#32) := by
  unfold k3_pay1
  show max (shapeCast S10000x64 x shapeCasts_S10000x64_S10000x64 (ix2 p q)
        + broadcastTo S10000x64 (shapeCast S1x64 (shapeCast S1x64 b shapeCasts_S1x64_S1x64) shapeCasts_S1x64_S1x64)
            broadcasts_S1x64_S10000x64 (ix2 p q))
      (Ideal.ofBits .f32 0x00000000#32) = _
  rw [shapeCast_self, shapeCast_self, shapeCast_self, broadcastTo_1b_ab_apply]

/-- Region 3's payload at a block entry against the whole-array expression at an array entry, under the same
    three conditions. -/
theorem pay3_eq_biasRelu (hb1 : S1x64.BroadcastsInDim S100000x64 (![0, 1] : Fin 2 → Fin S100000x64.rank))
    (hb2 : S_.BroadcastsInDim S100000x64 (![] : Fin 0 → Fin S100000x64.rank))
    (b : Vec Ideal S1x64 .f32) (x : Vec Ideal S10000x64 .f32)
    (X : FVec Ideal S100000x64 .f32) (B : FVec Ideal S1x64 .f32) (j : S10000x64.Idx) (i : S100000x64.Idx)
    (hx : x j = X i) (hB : ∀ q : Fin 64, b (ix2 (0 : Fin 1) q) = B (ix2 (0 : Fin 1) q))
    (hq : (i 1).val = (j 1).val) :
    k3_pay1 b x j = biasRelu hb1 hb2 X B i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext hq
  rw [pay3_apply, biasRelu_apply, hx, hB]

/-- The zero offsets of a whole-buffer access. -/
theorem zero_off : (![0, 0] : Fin 2 → Nat) = fun _ => 0 := funext fun a => by fin_cases a <;> rfl

/-! ## Region 1: from the blocks to the array -/

section Region1
variable (V : (c : Dev nD) → (b : Ref sig .tc) → Buf (Elt Ideal) ((c : Thread nD τ).loc b))

/-- The three index maps of region 1, decided over its ten grid points: the input rows' block moves with the
    output's block, the bias's block stays at (0, 0), and the output's block index is (point, 0). -/
theorem index_facts1 : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) ≤ 9
    ∧ win1_2.index t (1 : Fin 2) = 0 :=
  (by decide +kernel : ∀ t : Fin grid1.N, _)

/-- Every row block of the output is some point's. -/
theorem index_onto1 : ∀ q0 : Fin 10, ∃ t : Fin cfg1.N, win1_2.index t = ![q0.val, 0] :=
  (by decide +kernel : ∀ q0 : Fin 10, ∃ t : Fin grid1.N, win1_2.index t = ![q0.val, 0])

/-- What point t writes back is block t of the rectified biased array: entry (p, q) of the block is row
    t·10000 + p of the input at column q plus the bias at column q, cut below at zero. -/
theorem flushed1_eq (c : Dev nD) (hb1 : S1x64.BroadcastsInDim S100000x64 (![0, 1] : Fin 2 → Fin S100000x64.rank))
    (hb2 : S_.BroadcastsInDim S100000x64 (![] : Fin 0 → Fin S100000x64.rank)) (t : Fin cfg1.N) :
    (dat1 (F := Ideal) V c).flushed 2 t
      = ((cfg1.win 2).blk t).view.read (Elt Ideal) (biasRelu hb1 hb2 (V c main_v43) (V c main_v44)) := by
  show (cfg1.win 2).cut (grid1.coords t) ((dat1 V c).after 2 t) = _
  rw [after1_2]
  unfold out1_2
  rw [View.canon_unit_zero zero_off]
  simp only [View.ld_unit_zero (S := S10000x64) zero_off, View.ld_unit_zero (S := S1x64) zero_off]
  obtain ⟨e0, e1, e2, e3, e4, e5⟩ := index_facts1 t
  funext j
  show k1_pay1 (iblk1 V c 1 t) (iblk1 V c 0 t) j
      = biasRelu hb1 hb2 (V c main_v43) (V c main_v44) (((cfg1.win 2).blk t).view.emb j)
  refine pay1_eq_biasRelu hb1 hb2 (iblk1 V c 1 t) (iblk1 V c 0 t) (V c main_v43) (V c main_v44) j
    (((cfg1.win 2).blk t).view.emb j) ?_ ?_ ?_
  · -- the input block's entry sits in the array where the output block's entry does
    show V c main_v43 (((cfg1.win 0).blk t).view.emb j) = V c main_v43 (((cfg1.win 2).blk t).view.emb j)
    refine congrArg (V c main_v43) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  · -- the bias window's block is the whole 1×64 array
    intro q
    show V c main_v44 (((cfg1.win 1).blk t).view.emb (ix2 (0 : Fin 1) q)) = V c main_v44 (ix2 (0 : Fin 1) q)
    refine congrArg (V c main_v44) (funext fun a => Fin.ext ?_)
    match a with
    | ⟨0, _⟩ => show win1_1.index t (0 : Fin 2) * 1 + 1 * 0 = 0; omega
    | ⟨1, _⟩ => show win1_1.index t (1 : Fin 2) * 64 + 1 * q.val = q.val; omega
  · -- the output block spans all 64 columns from column 0
    show win1_2.index t (1 : Fin 2) * 64 + 1 * (j 1).val = (j 1).val
    omega

/-- An entry of the output array is in point t's block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v45).slice (win1_2.rect t)).set ↔ _
  rw [View.set_slice_whole, Rect.mem_set_unit]
  exact Iff.rfl

/-- The ten row blocks tile the array: row r lies in the block of point r / 10000, and every block spans all
    64 columns. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := index_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- THE OUTPUT ARRAY OF REGION 1 after its ten points, for any entry contents: relu(x + b) of the region's
    input array and bias, as one whole-array expression. Every point writes its block of that array back and the
    blocks cover it. -/
theorem final1 (c : Dev nD) (hb1 : S1x64.BroadcastsInDim S100000x64 (![0, 1] : Fin 2 → Fin S100000x64.rank))
    (hb2 : S_.BroadcastsInDim S100000x64 (![] : Fin 0 → Fin S100000x64.rank)) :
    (dat1 (F := Ideal) V c).arrAt 2 cfg1.N
      = maximumf (addf (V c main_v43) (broadcastInDim S100000x64 ![0, 1] hb1 (V c main_v44)))
          (broadcastInDim S100000x64 ![] hb2 (constant (F := Ideal) S_ .f32 0x00000000#32)) :=
  (dat1 (F := Ideal) V c).arrAt_eq_of_cover 2 (biasRelu hb1 hb2 (V c main_v43) (V c main_v44))
    (fun t _ => flushed1_eq V c hb1 hb2 t) cover1

end Region1

/-! ## Region 3: from the blocks to the array -/

section Region3
variable (V : (c : Dev nD) → (b : Ref sig .tc) → Buf (Elt Ideal) ((c : Thread nD τ).loc b))

/-- The three index maps of region 3, decided over its ten grid points: the input rows' block moves with the
    output's block, the bias's block stays at (0, 0), and the output's block index is (point, 0). -/
theorem index_facts3 : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) ≤ 9
    ∧ win3_2.index t (1 : Fin 2) = 0 :=
  (by decide +kernel : ∀ t : Fin grid3.N, _)

/-- Every row block of the output is some point's. -/
theorem index_onto3 : ∀ q0 : Fin 10, ∃ t : Fin cfg3.N, win3_2.index t = ![q0.val, 0] :=
  (by decide +kernel : ∀ q0 : Fin 10, ∃ t : Fin grid3.N, win3_2.index t = ![q0.val, 0])

/-- What point t writes back is block t of the rectified biased array: entry (p, q) of the block is row
    t·10000 + p of the input at column q plus the bias at column q, cut below at zero. -/
theorem flushed3_eq (c : Dev nD) (hb1 : S1x64.BroadcastsInDim S100000x64 (![0, 1] : Fin 2 → Fin S100000x64.rank))
    (hb2 : S_.BroadcastsInDim S100000x64 (![] : Fin 0 → Fin S100000x64.rank)) (t : Fin cfg3.N) :
    (dat3 (F := Ideal) V c).flushed 2 t
      = ((cfg3.win 2).blk t).view.read (Elt Ideal) (biasRelu hb1 hb2 (V c main_v59) (V c main_v60)) := by
  show (cfg3.win 2).cut (grid3.coords t) ((dat3 V c).after 2 t) = _
  rw [after3_2]
  unfold out3_2
  rw [View.canon_unit_zero zero_off]
  simp only [View.ld_unit_zero (S := S10000x64) zero_off, View.ld_unit_zero (S := S1x64) zero_off]
  obtain ⟨e0, e1, e2, e3, e4, e5⟩ := index_facts3 t
  funext j
  show k3_pay1 (iblk3 V c 1 t) (iblk3 V c 0 t) j
      = biasRelu hb1 hb2 (V c main_v59) (V c main_v60) (((cfg3.win 2).blk t).view.emb j)
  refine pay3_eq_biasRelu hb1 hb2 (iblk3 V c 1 t) (iblk3 V c 0 t) (V c main_v59) (V c main_v60) j
    (((cfg3.win 2).blk t).view.emb j) ?_ ?_ ?_
  · -- the input block's entry sits in the array where the output block's entry does
    show V c main_v59 (((cfg3.win 0).blk t).view.emb j) = V c main_v59 (((cfg3.win 2).blk t).view.emb j)
    refine congrArg (V c main_v59) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  · -- the bias window's block is the whole 1×64 array
    intro q
    show V c main_v60 (((cfg3.win 1).blk t).view.emb (ix2 (0 : Fin 1) q)) = V c main_v60 (ix2 (0 : Fin 1) q)
    refine congrArg (V c main_v60) (funext fun a => Fin.ext ?_)
    match a with
    | ⟨0, _⟩ => show win3_1.index t (0 : Fin 2) * 1 + 1 * 0 = 0; omega
    | ⟨1, _⟩ => show win3_1.index t (1 : Fin 2) * 64 + 1 * q.val = q.val; omega
  · -- the output block spans all 64 columns from column 0
    show win3_2.index t (1 : Fin 2) * 64 + 1 * (j 1).val = (j 1).val
    omega

/-- An entry of the output array is in point t's block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v61).slice (win3_2.rect t)).set ↔ _
  rw [View.set_slice_whole, Rect.mem_set_unit]
  exact Iff.rfl

/-- The ten row blocks tile the array: row r lies in the block of point r / 10000, and every block spans all
    64 columns. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := index_onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- THE OUTPUT ARRAY OF REGION 3 after its ten points, for any entry contents: relu(x + b) of the region's
    input array and bias, as one whole-array expression. Every point writes its block of that array back and the
    blocks cover it. -/
theorem final3 (c : Dev nD) (hb1 : S1x64.BroadcastsInDim S100000x64 (![0, 1] : Fin 2 → Fin S100000x64.rank))
    (hb2 : S_.BroadcastsInDim S100000x64 (![] : Fin 0 → Fin S100000x64.rank)) :
    (dat3 (F := Ideal) V c).arrAt 2 cfg3.N
      = maximumf (addf (V c main_v59) (broadcastInDim S100000x64 ![0, 1] hb1 (V c main_v60)))
          (broadcastInDim S100000x64 ![] hb2 (constant (F := Ideal) S_ .f32 0x00000000#32)) :=
  (dat3 (F := Ideal) V c).arrAt_eq_of_cover 2 (biasRelu hb1 hb2 (V c main_v59) (V c main_v60))
    (fun t _ => flushed3_eq V c hb1 hb2 t) cover3

end Region3

end Cert.KernelIdeal.RegionValue

end
-- ==== Proof.RefValue.lean ====
/-
  The reference program's result is the two-layer graph convolution of its arguments.

  The reference's run ends with its result buffer at the composed term of its 119 host operations over the launch
  contents of the arguments. That term is, sub-term for sub-term, `Spec.gcn` of the six arguments once the named
  pieces (end points, degrees, edge weights, message passing, bias and clamp) are unfolded — the reference computes the
  edge weights twice, once per layer, and both copies are the same term of the edge list.
-/
import proofs.«105514_j69896297775675_1_alg».proof.Proof.RefRun
import proofs.«105514_j69896297775675_1_alg».proof.Proof.Spec

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The composed term of the reference's operations is the graph convolution of the arguments' launch contents. -/
theorem res_eq (m : (ℓ : Loc nD τ sig) → Buf (Elt F) ℓ) (c : Dev nD) :
    ValueP.res_main_v88 (F := F) m c
      = Spec.gcn (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold ValueP.res_main_v88 Spec.gcn Spec.act Spec.agg Spec.normOf Spec.dinvOf Spec.degOf Spec.wrapIdx Spec.srcOf Spec.dstOf
  rfl

/-- Every weakly fair execution of the reference terminates with its result at the graph convolution of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88)
        = Spec.gcn (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (res_eq m c), (h c).2⟩) (ValueP.run (F := F) m ρ)

end Cert.ReferenceIdeal.RefValue

end
-- ==== Proof.lean ====
/-
  The certificate of a two-layer graph convolution: a program of four pipelined kernel launches (two matrix products
  row block by row block, two bias-and-clamp passes) among stretches of host operations, against a reference that is
  host operations only.

  The frames of the two kernel programs are the generated ones; the reference's frame is its run with the result
  dropped. No operation was rewritten by the idealization, so the kernel program's idealization is its own text.

  On the extended reals both idealized programs end with their result array at ONE function of the six argument
  arrays, `Spec.gcn`: the reference because its composed term unfolds to it, the kernel program because its run,
  followed boundary by boundary, leaves in each launch's output array the host's whole-array operation of the launch's
  input arrays (a product computed block by block is the product; rounding the factors to a narrower float format is
  the identity; a bias row made by a reshape is the bias row made by a broadcast) and its host stretches are the
  reference's operations. The equality of the two results needs no finiteness of the inputs: no sum is regrouped
  across a product and nothing is cancelled.
-/
import proofs.«105514_j69896297775675_1_alg».proof.Defs
import proofs.«105514_j69896297775675_1_alg».proof.Proof.Gen.Kernel
import proofs.«105514_j69896297775675_1_alg».proof.Proof.Gen.Kernel.Skeleton
import proofs.«105514_j69896297775675_1_alg».proof.Proof.Gen.Kernel.Launch
import proofs.«105514_j69896297775675_1_alg».proof.Proof.Gen.Kernel.Points
import proofs.«105514_j69896297775675_1_alg».proof.Proof.Gen.Kernel.Frame
import proofs.«105514_j69896297775675_1_alg».proof.Proof.Gen.KernelIdeal
import proofs.«105514_j69896297775675_1_alg».proof.Proof.Gen.KernelIdeal.Skeleton
import proofs.«105514_j69896297775675_1_alg».proof.Proof.Gen.KernelIdeal.Launch
import proofs.«105514_j69896297775675_1_alg».proof.Proof.Gen.KernelIdeal.Points
import proofs.«105514_j69896297775675_1_alg».proof.Proof.Gen.KernelIdeal.Frame
import proofs.«105514_j69896297775675_1_alg».proof.Proof.Gen.ReferenceIdeal
import proofs.«105514_j69896297775675_1_alg».proof.Proof.Gen.Pre_finite_inputs
import proofs.«105514_j69896297775675_1_alg».proof.Proof.KernelRun
import proofs.«105514_j69896297775675_1_alg».proof.Proof.KernelValue
import proofs.«105514_j69896297775675_1_alg».proof.Proof.RegionMatmul
import proofs.«105514_j69896297775675_1_alg».proof.Proof.RegionBiasRelu
import proofs.«105514_j69896297775675_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealization rewrote no operation. -/
theorem preserves : Cert.preserves_Kernel_KernelIdeal := trivial

/-- The idealized kernel program's run: the result array ends at the graph convolution of the arguments' launch
    contents (the run with its result named, then the boundaries followed with the four launches' whole-array
    results), the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v61) = Cert.ReferenceIdeal.Spec.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run (Cert.KernelIdeal.defs (F := Ideal)) _ _).mono
    (fun r h c => ⟨(h c).1.trans (Cert.KernelIdeal.RunValue.result_eq m ρ c Cert.KernelIdeal.RegionValue.final0 Cert.KernelIdeal.RegionValue.final1
        Cert.KernelIdeal.RegionValue.final2 Cert.KernelIdeal.RegionValue.final3), (h c).2⟩)
    (Cert.KernelIdeal.RunValue.run_result (F := Ideal) m ρ)

/-- From memories that agree on the arguments both idealized programs end at the graph convolution of the same six
    arrays. -/
theorem algebraic : Cert.algebraic_KernelIdeal_ReferenceIdeal := by
  intro m ρ m' ρ' _ hagree
  refine ⟨fun c => Cert.ReferenceIdeal.Spec.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), kernel_run m ρ, ?_⟩
  refine (θ_run (Cert.ReferenceIdeal.defs (F := Ideal)) _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
